-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S3x64 .f32) (main_arg6 : FVec F S64x40 .f32) (main_arg7 : FVec F S40 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S3x64x64 .f32) (main_arg5 : FVec F S3x64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1x64x64 : Shape := ⟨3, ![1, 64, 64]⟩
abbrev S64x64 : Shape := ⟨2, ![64, 64]⟩
abbrev S100000x40 : Shape := ⟨2, ![100000, 40]⟩
abbrev S5000x40 : Shape := ⟨2, ![5000, 40]⟩
abbrev S1x40 : Shape := ⟨2, ![1, 40]⟩

abbrev nBuf : Space → Nat
  | .hbm => 149
  | .vmem => 36
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S3x64x64, .f32⟩
  | 5 => ⟨S3x64, .f32⟩
  | 6 => ⟨S64x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S100000x64, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x64, .f32⟩
  | 53 => ⟨S1700000x1, .f32⟩
  | 54 => ⟨S1700000x64, .f32⟩
  | 55 => ⟨S1700000x64, .f32⟩
  | 56 => ⟨S_, .f32⟩
  | 57 => ⟨S100000x64, .f32⟩
  | 58 => ⟨S1700000x1, .i32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S1x64x64, .f32⟩
  | 67 => ⟨S64x64, .f32⟩
  | 68 => ⟨S100000x64, .f32⟩
  | 69 => ⟨S1x64, .f32⟩
  | 70 => ⟨S64, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x64, .f32⟩
  | 80 => ⟨S1700000x1, .f32⟩
  | 81 => ⟨S1700000x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S1x64x64, .f32⟩
  | 94 => ⟨S64x64, .f32⟩
  | 95 => ⟨S100000x64, .f32⟩
  | 96 => ⟨S1x64, .f32⟩
  | 97 => ⟨S64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S1x64x64, .f32⟩
  | 121 => ⟨S64x64, .f32⟩
  | 122 => ⟨S100000x64, .f32⟩
  | 123 => ⟨S1x64, .f32⟩
  | 124 => ⟨S64, .f32⟩
  | 125 => ⟨S_, .i32⟩
  | 126 => ⟨S1700000, .i32⟩
  | 127 => ⟨S1700000, .i1⟩
  | _ => ⟨S100000x128, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x64, .f32⟩
  | 6 => ⟨S1700000x1, .f32⟩
  | 7 => ⟨S1700000x64, .f32⟩
  | 8 => ⟨S1700000x64, .f32⟩
  | 9 => ⟨S_, .f32⟩
  | 10 => ⟨S100000x64, .f32⟩
  | 11 => ⟨S1700000x1, .i32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S100000x64, .f32⟩
  | 20 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x40, .f32⟩
  | .local _ .vmem, ⟨33, _⟩ => ⟨S40, .f32⟩
  | .local _ .vmem, ⟨34, _⟩ => ⟨S5000x40, .f32⟩
  | .local _ .vmem, ⟨35, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_11 : Ref sig .tc := ⟨.hbm, 98, rfl⟩
abbrev main_v73 : Ref sig .tc := ⟨.hbm, 99, rfl⟩
abbrev main_v74 : Ref sig .tc := ⟨.hbm, 100, rfl⟩
abbrev main_c_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_13 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call2_cst : Ref sig .tc := ⟨.hbm, 117, rfl⟩
abbrev main_call2_v0 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_14 : Ref sig .tc := ⟨.hbm, 125, rfl⟩
abbrev main_v95 : Ref sig .tc := ⟨.hbm, 126, rfl⟩
abbrev main_v96 : Ref sig .tc := ⟨.hbm, 127, rfl⟩
abbrev main_c_15 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_16 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_call3_cst : Ref sig .tc := ⟨.hbm, 144, rfl⟩
abbrev main_call3_v0 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg3_1 : Ref sig .tc := ⟨.vmem, 27, rfl⟩
abbrev cc4_stg4_0 : Ref sig .tc := ⟨.vmem, 28, rfl⟩
abbrev cc4_stg4_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem3_1 : DmaSem sig := 27
abbrev cc4_sem4_0 : DmaSem sig := 28
abbrev cc4_sem4_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x40.size a ≤ S64x40.size a
  hwx5_1 : ∀ i : grid5.Coords, EltTy.bits .f32 = 32 ∨ (Rect.block (s := S64x40) S64x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S40.size a ≤ S40.size a
  hwx5_2 : ∀ i : grid5.Coords, EltTy.bits .f32 = 32 ∨ (Rect.block (s := S40) S40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x40.size a ≤ S100000x40.size a
  hwx5_3 : ∀ i : grid5.Coords, EltTy.bits .f32 = 32 ∨ (Rect.block (s := S100000x40) S5000x40.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v111) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v112) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v112) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S64x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S5000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1x64x64 : Shape := ⟨3, ![1, 64, 64]⟩
abbrev S64x64 : Shape := ⟨2, ![64, 64]⟩
abbrev S1x100000x64 : Shape := ⟨3, ![1, 100000, 64]⟩
abbrev S4x100000x64 : Shape := ⟨3, ![4, 100000, 64]⟩
abbrev S100000x40 : Shape := ⟨2, ![100000, 40]⟩
abbrev S1x40 : Shape := ⟨2, ![1, 40]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S3x64x64, .f32⟩
  | 5 => ⟨S3x64, .f32⟩
  | 6 => ⟨S64x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S100000x64, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x64, .f32⟩
  | 53 => ⟨S1700000x1, .f32⟩
  | 54 => ⟨S1700000x64, .f32⟩
  | 55 => ⟨S1700000x64, .f32⟩
  | 56 => ⟨S_, .f32⟩
  | 57 => ⟨S100000x64, .f32⟩
  | 58 => ⟨S1700000x1, .i32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S1x64x64, .f32⟩
  | 67 => ⟨S64x64, .f32⟩
  | 68 => ⟨S1x64, .f32⟩
  | 69 => ⟨S64, .f32⟩
  | 70 => ⟨S100000x64, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x64, .f32⟩
  | 80 => ⟨S1700000x1, .f32⟩
  | 81 => ⟨S1700000x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S1x64x64, .f32⟩
  | 94 => ⟨S64x64, .f32⟩
  | 95 => ⟨S1x64, .f32⟩
  | 96 => ⟨S64, .f32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S1x64x64, .f32⟩
  | 121 => ⟨S64x64, .f32⟩
  | 122 => ⟨S1x64, .f32⟩
  | 123 => ⟨S64, .f32⟩
  | 124 => ⟨S100000x64, .f32⟩
  | 125 => ⟨S_, .i32⟩
  | 126 => ⟨S1700000, .i32⟩
  | 127 => ⟨S1700000, .i1⟩
  | _ => ⟨S100000x128, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x64, .f32⟩
  | 6 => ⟨S1700000x1, .f32⟩
  | 7 => ⟨S1700000x64, .f32⟩
  | 8 => ⟨S1700000x64, .f32⟩
  | 9 => ⟨S_, .f32⟩
  | 10 => ⟨S100000x64, .f32⟩
  | 11 => ⟨S1700000x1, .i32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S1x100000x64, .f32⟩
  | 20 => ⟨S1x100000x64, .f32⟩
  | 21 => ⟨S1x100000x64, .f32⟩
  | 22 => ⟨S1x100000x64, .f32⟩
  | 23 => ⟨S4x100000x64, .f32⟩
  | 24 => ⟨S_, .f32⟩
  | 25 => ⟨S100000x64, .f32⟩
  | 26 => ⟨S100000x40, .f32⟩
  | 27 => ⟨S1x40, .f32⟩
  | 28 => ⟨S100000x40, .f32⟩
  | 29 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_11 : Ref sig .tc := ⟨.hbm, 98, rfl⟩
abbrev main_v73 : Ref sig .tc := ⟨.hbm, 99, rfl⟩
abbrev main_v74 : Ref sig .tc := ⟨.hbm, 100, rfl⟩
abbrev main_c_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_13 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call2_cst : Ref sig .tc := ⟨.hbm, 117, rfl⟩
abbrev main_call2_v0 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_14 : Ref sig .tc := ⟨.hbm, 125, rfl⟩
abbrev main_v95 : Ref sig .tc := ⟨.hbm, 126, rfl⟩
abbrev main_v96 : Ref sig .tc := ⟨.hbm, 127, rfl⟩
abbrev main_c_15 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_16 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_call3_cst : Ref sig .tc := ⟨.hbm, 144, rfl⟩
abbrev main_call3_v0 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_17 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S100000x64_S1x100000x64_1_2 : S100000x64.BroadcastsInDim S1x100000x64 (![1, 2] : Fin 2 → Fin S1x100000x64.rank)
  concatenates_S1x100000x64_S1x100000x64_S1x100000x64_S1x100000x64_S4x100000x64_d0 : Shape.Concatenates [S1x100000x64, S1x100000x64, S1x100000x64, S1x100000x64] S4x100000x64 0
  reducesTo_S4x100000x64_S100000x64_d0 : S4x100000x64.ReducesTo [0] S100000x64
  h_S_ : 0 < S_.numel
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel's run with its result named.

  The program is six regions among stretches of host operations.  Every weakly fair execution terminates without a
  fault, and in the final state every buffer that outlives its region holds what the chain of boundary contents gives
  it: each stretch's operations applied to the contents before it, each region's arrays at what its write-backs leave.
  The frame claim reads this at the eight argument arrays; here it is read at the result buffer as well, so the result
  is the last boundary's contents there.
-/
import proofs.«111088_j68899865362570_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v113) = W18 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v113 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c)⟩)

end Cert.KernelIdeal.Whole

end
-- ==== Proof.LibStackMax.lean ====
/-
  The maximum over a stack of four arrays, read one entry at a time, at the exact (extended-real) values.

  Four A×B arrays are each given a leading axis of extent one, joined along it into a 4×A×B array, and the host folds
  a maximum over that axis starting from −∞.  The entry (p, q) of the result is the maximum of −∞ and the four
  arrays' entries at (p, q); −∞ is the least extended real, so it is the maximum of the four entries, in any grouping.
-/
import Idealize.ShloMosaic.Lib.ValueIdx
import Idealize.ShloMosaic.Lib.Pipeline.Value
import Idealize.ShloMosaic.PureOps.Ideal.Laws
import Idealize.ShloMosaic.PureOps.Reduce

noncomputable section

namespace Cert.StackMax

open Idealize.ShloMosaic Idealize.ShloMosaic.ValueIdx

/-- The entrywise maximum of four arrays, grouped from the left. -/
def max4 {S : Shape} (a b c d : S.Idx → EReal) : S.Idx → EReal := fun i => max (max (max (a i) (b i)) (c i)) (d i)

/-- A maximum folded over four values from the least element is their maximum. -/
theorem fold_max_fin4 (g : Fin 4 → EReal) :
    (Finset.univ : Finset (Fin 4)).fold max ⊥ g = max (max (max (g 0) (g 1)) (g 2)) (g 3) := by
  apply le_antisymm
  · rw [Finset.fold_max_le]
    refine ⟨bot_le, fun k _ => ?_⟩
    fin_cases k
    · exact le_max_of_le_left (le_max_of_le_left (le_max_left _ _))
    · exact le_max_of_le_left (le_max_of_le_left (le_max_right _ _))
    · exact le_max_of_le_left (le_max_right _ _)
    · exact le_max_right _ _
  · refine max_le (max_le (max_le ?_ ?_) ?_) ?_
    · exact (Finset.le_fold_max _).2 (Or.inr ⟨0, Finset.mem_univ _, le_rfl⟩)
    · exact (Finset.le_fold_max _).2 (Or.inr ⟨1, Finset.mem_univ _, le_rfl⟩)
    · exact (Finset.le_fold_max _).2 (Or.inr ⟨2, Finset.mem_univ _, le_rfl⟩)
    · exact (Finset.le_fold_max _).2 (Or.inr ⟨3, Finset.mem_univ _, le_rfl⟩)

variable {A B : Nat}

/-- The index (p, q) of the result with the stacked coordinate k put back is (k, p, q). -/
theorem lift_ix3 (h : (⟨3, ![4, A, B]⟩ : Shape).Reduces [0] (⟨2, ![A, B]⟩ : Shape)) (p : Fin A) (q : Fin B)
    (k : Fin ((⟨3, ![4, A, B]⟩ : Shape).size 0)) : h.lift (ix2 p q) k = ix3 (⟨k.val, k.isLt⟩ : Fin 4) p q := by
  funext c; apply Fin.ext
  fin_cases c <;> rfl

/-- An A×B array given a leading axis of extent one, at (0, p, q): the array at (p, q). -/
theorem lead_apply (hb : (⟨2, ![A, B]⟩ : Shape).BroadcastsInDim (⟨3, ![1, A, B]⟩ : Shape) (![1, 2] : Fin 2 → Fin 3))
    (hA : A ≠ 1) (hB : B ≠ 1) (x : (⟨2, ![A, B]⟩ : Shape).Idx → EReal) (p : Fin A) (q : Fin B) :
    broadcastInDim (⟨3, ![1, A, B]⟩ : Shape) ![1, 2] hb x (ix3 (0 : Fin 1) p q) = x (ix2 p q) :=
  broadcastInDim_apply _ hb x _ (ix2 p q) (fun a => match a with
    | ⟨0, _⟩ => by show p.val = if A = 1 then 0 else p.val; rw [if_neg hA]
    | ⟨1, _⟩ => by show q.val = if B = 1 then 0 else q.val; rw [if_neg hB])

/-- The four arrays joined along the leading axis, at (k, p, q): array k at (p, q). -/
theorem stack_apply (hb : (⟨2, ![A, B]⟩ : Shape).BroadcastsInDim (⟨3, ![1, A, B]⟩ : Shape) (![1, 2] : Fin 2 → Fin 3))
    (hA : A ≠ 1) (hB : B ≠ 1) (f : Fin 4 → ((⟨2, ![A, B]⟩ : Shape).Idx → EReal))
    (hc : Shape.Concatenates [(⟨3, ![1, A, B]⟩ : Shape), ⟨3, ![1, A, B]⟩, ⟨3, ![1, A, B]⟩, ⟨3, ![1, A, B]⟩] (⟨3, ![4, A, B]⟩ : Shape) 0)
    (k : Fin 4) (p : Fin A) (q : Fin B) :
    concatenate (⟨3, ![4, A, B]⟩ : Shape) 0
        [⟨(⟨3, ![1, A, B]⟩ : Shape), broadcastInDim (⟨3, ![1, A, B]⟩ : Shape) ![1, 2] hb (f 0)⟩,
         ⟨(⟨3, ![1, A, B]⟩ : Shape), broadcastInDim (⟨3, ![1, A, B]⟩ : Shape) ![1, 2] hb (f 1)⟩,
         ⟨(⟨3, ![1, A, B]⟩ : Shape), broadcastInDim (⟨3, ![1, A, B]⟩ : Shape) ![1, 2] hb (f 2)⟩,
         ⟨(⟨3, ![1, A, B]⟩ : Shape), broadcastInDim (⟨3, ![1, A, B]⟩ : Shape) ![1, 2] hb (f 3)⟩] hc (ix3 k p q)
      = f k (ix2 p q) := by
  refine Eq.trans ?_ (lead_apply hb hA hB (f k) p q)
  exact concatenate_ofFn_unit_apply (t := (⟨3, ![4, A, B]⟩ : Shape)) (s₁ := (⟨3, ![1, A, B]⟩ : Shape)) (0 : Fin 3)
    (fun n : Fin 4 => broadcastInDim (⟨3, ![1, A, B]⟩ : Shape) ![1, 2] hb (f n)) hc rfl rfl (ix3 k p q) k rfl
    (ix3 (0 : Fin 1) p q) (fun b hbne => by
      match b with
      | ⟨0, _⟩ => exact absurd rfl hbne
      | ⟨1, _⟩ => rfl
      | ⟨2, _⟩ => rfl)

/-- From −∞ the host's maximum over the stacked axis of the four joined arrays is their entrywise maximum. -/
theorem reduce_stack4 (hb : (⟨2, ![A, B]⟩ : Shape).BroadcastsInDim (⟨3, ![1, A, B]⟩ : Shape) (![1, 2] : Fin 2 → Fin 3))
    (hA : A ≠ 1) (hB : B ≠ 1) (a b c d : FVec Ideal (⟨2, ![A, B]⟩ : Shape) .f32)
    (hc : Shape.Concatenates [(⟨3, ![1, A, B]⟩ : Shape), ⟨3, ![1, A, B]⟩, ⟨3, ![1, A, B]⟩, ⟨3, ![1, A, B]⟩] (⟨3, ![4, A, B]⟩ : Shape) 0)
    (h' : (⟨3, ![4, A, B]⟩ : Shape).ReducesTo [0] (⟨2, ![A, B]⟩ : Shape))
    (h : (⟨3, ![4, A, B]⟩ : Shape).Reduces [0] (⟨2, ![A, B]⟩ : Shape)) (hu : 0 < (⟨0, ![]⟩ : Shape).numel) :
    Host.reduce FloatOps.maximumf
        (concatenate (⟨3, ![4, A, B]⟩ : Shape) 0
          [⟨(⟨3, ![1, A, B]⟩ : Shape), broadcastInDim (⟨3, ![1, A, B]⟩ : Shape) ![1, 2] hb a⟩,
           ⟨(⟨3, ![1, A, B]⟩ : Shape), broadcastInDim (⟨3, ![1, A, B]⟩ : Shape) ![1, 2] hb b⟩,
           ⟨(⟨3, ![1, A, B]⟩ : Shape), broadcastInDim (⟨3, ![1, A, B]⟩ : Shape) ![1, 2] hb c⟩,
           ⟨(⟨3, ![1, A, B]⟩ : Shape), broadcastInDim (⟨3, ![1, A, B]⟩ : Shape) ![1, 2] hb d⟩] hc)
        (constant (F := Ideal) (⟨0, ![]⟩ : Shape) .f32 0xFF800000#32) h' hu
      = max4 a b c d := by
  funext j
  obtain ⟨p, q, rfl⟩ : ∃ (p : Fin A) (q : Fin B), j = ix2 p q := ⟨j 0, j 1, eq_ix2 j⟩
  rw [Host.reduce_eq_fold_single FloatOps.maximumf _ _ h' h hu]
  have hbot : Ideal.ofBits .f32 0xFF800000#32 = (⊥ : EReal) := by simp [Ideal.ofBits, Ideal.ieee]
  let f : Fin 4 → ((⟨2, ![A, B]⟩ : Shape).Idx → EReal) := ![a, b, c, d]
  have e := fold_max_fin4 (fun k : Fin 4 => f k (ix2 p q))
  refine Eq.trans ?_ e
  have hf : ((concatenate (⟨3, ![4, A, B]⟩ : Shape) 0
          [⟨(⟨3, ![1, A, B]⟩ : Shape), broadcastInDim (⟨3, ![1, A, B]⟩ : Shape) ![1, 2] hb a⟩,
           ⟨(⟨3, ![1, A, B]⟩ : Shape), broadcastInDim (⟨3, ![1, A, B]⟩ : Shape) ![1, 2] hb b⟩,
           ⟨(⟨3, ![1, A, B]⟩ : Shape), broadcastInDim (⟨3, ![1, A, B]⟩ : Shape) ![1, 2] hb c⟩,
           ⟨(⟨3, ![1, A, B]⟩ : Shape), broadcastInDim (⟨3, ![1, A, B]⟩ : Shape) ![1, 2] hb d⟩] hc) ∘ h.lift (ix2 p q))
      = fun k : Fin 4 => f k (ix2 p q) := funext fun k => by
    rw [Function.comp_apply, lift_ix3 h p q k]
    exact stack_apply hb hA hB f hc ⟨k.val, k.isLt⟩ p q
  rw [← hbot]
  exact congrArg (fun g => Finset.fold max (Ideal.ofBits .f32 0xFF800000#32) g (Finset.univ : Finset (Fin 4))) hf

end Cert.StackMax

end
-- ==== Proof.Region4.lean ====
/-
  Region 4: the entrywise maximum of four 100000×64 arrays, a block of 5000 rows at a time.

  At grid point t the body loads rows 5000·t … of each of the four arrays and stores the maximum of the first two, then
  with the third, then with the fourth; the block is written back as the same rows of the result.  The stored entry
  depends only on the four arrays' entries at the same place, so each block is the same rows of the whole entrywise
  maximum, and the twenty blocks cover every row.
-/
import proofs.«111088_j68899865362570_1_alg».proof.Proof.Gen.KernelIdeal.Frame
import proofs.«111088_j68899865362570_1_alg».proof.Proof.LibStackMax
import Idealize.ShloMosaic.Lib.Pipeline.Value
import Idealize.ShloMosaic.Lib.ValueIdx

noncomputable section

namespace Cert.KernelIdeal.Region4

open Idealize.ShloMosaic Idealize.ShloMosaic.TcCoe Idealize.ShloMosaic.ValueIdx Idealize.SL.Sem
open Cert.KernelIdeal Cert.KernelIdeal.Gen Cert.StackMax
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the entrywise maximum of the four loaded blocks. -/
theorem stored_eq (x0 x1 x2 x3 : Vec Ideal S5000x64 .f32) : k4_pay1 x0 x1 x2 x3 = max4 x0 x1 x2 x3 := by
  unfold k4_pay1
  rw [shapeCast_self, shapeCast_self, shapeCast_self, shapeCast_self]
  rfl

/-- All five windows sit at block row t. -/
theorem blocks_at : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- What point t writes back is block t of the entrywise maximum of the four arrays the region finds. -/
theorem written_back (c : Dev nD) (t : Fin cfg4.N) :
    (dat4 V c).flushed 4 t = ((cfg4.win 4).blk t).view.read (Elt Ideal)
      (max4 (S := S100000x64) (V c main_v45) (V c main_v67) (V c main_v89) (V c main_v111)) := by
  show (cfg4.win 4).cut (grid4.coords t) ((dat4 V c).after 4 t) = _
  rw [after4_4]
  unfold out4_4
  rw [View.canon_unit_zero origin]
  simp only [View.ld_unit_zero (S := S5000x64) origin]
  rw [stored_eq]
  obtain ⟨a0, a1, b0, b1, c0, c1, d0, d1, o0, o1⟩ := blocks_at t
  funext j
  have hj0 : (j 0).val < 5000 := (j 0).isLt
  have hj1 : (j 1).val < 64 := (j 1).isLt
  have h0 : ((cfg4.win 0).blk t).view.emb j = ((cfg4.win 4).blk t).view.emb j := by
    funext a; apply Fin.ext
    match a with
    | ⟨0, _⟩ => show win4_0.index t (0 : Fin 2) * 5000 + 1 * (j 0).val = win4_4.index t (0 : Fin 2) * 5000 + 1 * (j 0).val; omega
    | ⟨1, _⟩ => show win4_0.index t (1 : Fin 2) * 64 + 1 * (j 1).val = win4_4.index t (1 : Fin 2) * 64 + 1 * (j 1).val; omega
  have h1 : ((cfg4.win 1).blk t).view.emb j = ((cfg4.win 4).blk t).view.emb j := by
    funext a; apply Fin.ext
    match a with
    | ⟨0, _⟩ => show win4_1.index t (0 : Fin 2) * 5000 + 1 * (j 0).val = win4_4.index t (0 : Fin 2) * 5000 + 1 * (j 0).val; omega
    | ⟨1, _⟩ => show win4_1.index t (1 : Fin 2) * 64 + 1 * (j 1).val = win4_4.index t (1 : Fin 2) * 64 + 1 * (j 1).val; omega
  have h2 : ((cfg4.win 2).blk t).view.emb j = ((cfg4.win 4).blk t).view.emb j := by
    funext a; apply Fin.ext
    match a with
    | ⟨0, _⟩ => show win4_2.index t (0 : Fin 2) * 5000 + 1 * (j 0).val = win4_4.index t (0 : Fin 2) * 5000 + 1 * (j 0).val; omega
    | ⟨1, _⟩ => show win4_2.index t (1 : Fin 2) * 64 + 1 * (j 1).val = win4_4.index t (1 : Fin 2) * 64 + 1 * (j 1).val; omega
  have h3 : ((cfg4.win 3).blk t).view.emb j = ((cfg4.win 4).blk t).view.emb j := by
    funext a; apply Fin.ext
    match a with
    | ⟨0, _⟩ => show win4_3.index t (0 : Fin 2) * 5000 + 1 * (j 0).val = win4_4.index t (0 : Fin 2) * 5000 + 1 * (j 0).val; omega
    | ⟨1, _⟩ => show win4_3.index t (1 : Fin 2) * 64 + 1 * (j 1).val = win4_4.index t (1 : Fin 2) * 64 + 1 * (j 1).val; omega
  have g0 : iblk4 V c 0 t j = V c main_v45 (((cfg4.win 4).blk t).view.emb j) := by
    show V c main_v45 (((cfg4.win 0).blk t).view.emb j) = _
    rw [h0]
  have g1 : iblk4 V c 1 t j = V c main_v67 (((cfg4.win 4).blk t).view.emb j) := by
    show V c main_v67 (((cfg4.win 1).blk t).view.emb j) = _
    rw [h1]
  have g2 : iblk4 V c 2 t j = V c main_v89 (((cfg4.win 4).blk t).view.emb j) := by
    show V c main_v89 (((cfg4.win 2).blk t).view.emb j) = _
    rw [h2]
  have g3 : iblk4 V c 3 t j = V c main_v111 (((cfg4.win 4).blk t).view.emb j) := by
    show V c main_v111 (((cfg4.win 3).blk t).view.emb j) = _
    rw [h3]
  show max4 (S := S5000x64) (iblk4 V c 0 t) (iblk4 V c 1 t) (iblk4 V c 2 t) (iblk4 V c 3 t) j
      = max4 (S := S100000x64) (V c main_v45) (V c main_v67) (V c main_v89) (V c main_v111) (((cfg4.win 4).blk t).view.emb j)
  unfold max4
  rw [g0, g1, g2, g3]

/-- An index of the result array is in point t's block iff each coordinate is in the block's range on its axis. -/
theorem in_block (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v112).slice (win4_4.rect t)).set ↔ _
  rw [View.set_slice_whole, Rect.mem_set_unit]
  exact Iff.rfl

/-- Every row of the result lies in the block of the point numbered (row / 5000). -/
theorem covered (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : grid4.N = 20 := N_4
  have ht : (i 0).val / 5000 < grid4.N := by rw [hN]; omega
  obtain ⟨a0, a1, b0, b1, c0, c1, d0, d1, o0, o1⟩ := blocks_at ⟨(i 0).val / 5000, ht⟩
  refine ⟨⟨(i 0).val / 5000, ht⟩, flush4_4 _, ?_⟩
  rw [in_block]
  intro a
  match a with
  | ⟨0, _⟩ =>
    show win4_4.index ⟨(i 0).val / 5000, ht⟩ (0 : Fin 2) * 5000 ≤ (i 0).val ∧ (i 0).val < win4_4.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win4_4.index ⟨(i 0).val / 5000, ht⟩ (1 : Fin 2) * 64 ≤ (i 1).val ∧ (i 1).val < win4_4.index ⟨(i 0).val / 5000, ht⟩ (1 : Fin 2) * 64 + 64
    rw [o1]
    omega

/-- The result array after the region: the entrywise maximum of the four arrays the region finds. -/
theorem result (c : Dev nD) :
    (dat4 V c).arrAt 4 cfg4.N = max4 (S := S100000x64) (V c main_v45) (V c main_v67) (V c main_v89) (V c main_v111) :=
  (dat4 V c).arrAt_eq_of_cover 4 _ (fun t _ => written_back V c t) covered

end Cert.KernelIdeal.Region4

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowsProduct.lean ====
/-
  A product of an M×K array with a K×N matrix as ONE function of the two arrays: entry (p, q) is row p of the left
  array times the matrix, at column q, and depends on no other row.  The host's dot_general of the plain dimension
  numbers is that function.  So when the rows are cut into consecutive blocks and each block is multiplied by the whole
  matrix, the blocks laid end to end are the whole product.
-/
import Idealize.ShloMosaic.Lib.ValueIdx
import Idealize.ShloMosaic.PureOps.Ideal.Laws
import proofs.«111088_j68899865362570_1_alg».proof.Proof.LibRowDot

noncomputable section

open scoped BigOperators

namespace Cert.RowsProduct

open Idealize.ShloMosaic Idealize.ShloMosaic.ValueIdx Cert.RowDot

/-- The whole product: entry i is (row (i 0) of x) · w at column (i 1). -/
def rowsTimes {M K N : Nat} (x : (⟨2, ![M, K]⟩ : Shape).Idx → EReal) (w : (⟨2, ![K, N]⟩ : Shape).Idx → EReal) :
    (⟨2, ![M, N]⟩ : Shape).Idx → EReal :=
  fun i => rowDot (rowOf x (i 0)) w (i 1)

/-- The host's product of the plain dimension numbers is the whole product. -/
theorem hostDot_eq_rowsTimes {M K N : Nat} (prec : Option ContractPrecision)
    (x : FVec Ideal (⟨2, ![M, K]⟩ : Shape) .f32) (w : FVec Ideal (⟨2, ![K, N]⟩ : Shape) .f32) :
    Host.dotGeneral (F := Ideal) (DotDims.plain M K N) prec x w = rowsTimes x w :=
  funext fun j => dotGeneral_plain_apply prec .single x w j

/-- The vector unit's product into zero of a block of rows, after the changes of float format that keep every value:
    entry j is row (j 0) of the block times the matrix at column (j 1). -/
theorem blockDot_apply {M K N : Nat} {ψ₁ ψ₂ : FTy} (prec : Option ContractPrecision) (h₁ : ψ₁.bits < FTy.f32.bits) (h₂ : ψ₂.bits < FTy.f32.bits)
    (a : FVec Ideal (⟨2, ![M, K]⟩ : Shape) .f32) (w : FVec Ideal (⟨2, ![K, N]⟩ : Shape) .f32) (j : (⟨2, ![M, N]⟩ : Shape).Idx) :
    matmul (DotDims.plain M K N) prec (truncf ψ₁ a h₁) (truncf ψ₂ w h₂)
        (constant (F := Ideal) ⟨2, ![M, N]⟩ .f32 0x00000000#32) j
      = rowDot (rowOf a (j 0)) w (j 1) :=
  matmul_plain_zero_apply prec (φ₁ := ψ₁) (φ₂ := ψ₂) a w j

end Cert.RowsProduct

end
-- ==== Proof.Region5.lean ====
/-
  Region 5: a block of 5000 rows times the whole 64×40 matrix, plus the bias of 40 numbers on every row.

  At grid point t the body loads rows 5000·t … of the left array, the whole matrix and the whole bias, multiplies the
  block by the matrix into a zero accumulator (the changes of float format keep every value), recasts the bias as one
  row, spreads it over the 5000 rows and adds.  Entry (p, q) of the stored block is row p of the block times the matrix
  at column q, plus the bias at q: the same rows of the whole product with the bias added to every row.  The twenty
  blocks cover every row of the result.
-/
import proofs.«111088_j68899865362570_1_alg».proof.Proof.Gen.KernelIdeal.Frame
import proofs.«111088_j68899865362570_1_alg».proof.Proof.LibRowsProduct
import Idealize.ShloMosaic.Lib.Pipeline.Value
import Idealize.ShloMosaic.Lib.ValueIdx
import Idealize.ShloMosaic.Lib.ValueLayout

noncomputable section

namespace Cert.KernelIdeal.Region5

open Idealize.ShloMosaic Idealize.ShloMosaic.TcCoe Idealize.ShloMosaic.ValueIdx Idealize.SL.Sem
open Cert.KernelIdeal Cert.KernelIdeal.Gen Cert.RowDot Cert.RowsProduct
open Idealize.ShloMosaic.Pipeline (Dat)

variable (V : (c : Dev nD) → (b : Ref sig .tc) → Buf (Elt Ideal) ((c : Thread nD τ).loc b))

/-- The whole product with a bias of N numbers added to every row. -/
def rowsTimesPlus {M K N : Nat} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => rowsTimes x w i + b (ix1 (i 1))

theorem origin : (![0, 0] : Fin 2 → Nat) = fun _ => 0 := funext fun a => by fin_cases a <;> rfl
theorem origin1 : (![0] : Fin 1 → Nat) = fun _ => 0 := funext fun a => by fin_cases a; rfl

/-- The body's stored value at an entry: row p of the loaded block times the loaded matrix at column q, plus the
    loaded bias at q. -/
theorem stored_apply (x0 : Vec Ideal S5000x64 .f32) (x1 : Vec Ideal S64x40 .f32) (x2 : Vec Ideal S40 .f32)
    (p : Fin 5000) (q : Fin 40) :
    k5_pay1 x0 x1 x2 (ix2 p q) = rowDot (rowOf x0 p) x1 q + x2 (ix1 q) := by
  unfold k5_pay1
  rw [shapeCast_self]
  show matmul (DotDims.plain 5000 64 40) none (truncf .bf16 x0 bitsLt_bf16_f32) (truncf .bf16 x1 bitsLt_bf16_f32)
        (constant (F := Ideal) S5000x40 .f32 0x00000000#32) (ix2 p q)
      + broadcastTo S5000x40 (shapeCast S1x40 x2 shapeCasts_S40_S1x40) broadcasts_S1x40_S5000x40 (ix2 p q) = _
  rw [broadcastTo_1b_ab_apply, shapeCast_a_1a_apply]
  exact congrArg (· + x2 (ix1 q)) (blockDot_apply none bitsLt_bf16_f32 bitsLt_bf16_f32 x0 x1 (ix2 p q))

/-- Where the four windows sit at point t: the left block and the result block at block row t, matrix and bias whole. -/
theorem blocks_at : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- What point t writes back is block t of the whole product plus bias of the arrays the region finds. -/
theorem written_back (c : Dev nD) (t : Fin cfg5.N) :
    (dat5 V c).flushed 3 t = ((cfg5.win 3).blk t).view.read (Elt Ideal)
      (rowsTimesPlus (V c main_v112) (V c main_arg6) (V c main_arg7)) := by
  show (cfg5.win 3).cut (grid5.coords t) ((dat5 V c).after 3 t) = _
  rw [after5_3]
  unfold out5_3
  rw [View.canon_unit_zero origin]
  simp only [View.ld_unit_zero (S := S5000x64) origin, View.ld_unit_zero (S := S64x40) origin, View.ld_unit_zero (S := S40) origin1]
  obtain ⟨e0, e1, e2, e3, e4, e5, e6⟩ := blocks_at t
  funext j
  obtain ⟨p, q, rfl⟩ : ∃ (p : Fin 5000) (q : Fin 40), j = ix2 p q := ⟨j 0, j 1, eq_ix2 j⟩
  show k5_pay1 (iblk5 V c 0 t) (iblk5 V c 1 t) (iblk5 V c 2 t) (ix2 p q)
      = rowsTimesPlus (V c main_v112) (V c main_arg6) (V c main_arg7) (((cfg5.win 3).blk t).view.emb (ix2 p q))
  refine (stored_apply _ _ _ p q).trans ?_
  unfold rowsTimesPlus rowsTimes rowDot rowOf
  have hb : iblk5 V c 2 t (ix1 q) = V c main_arg7 (ix1 ((((cfg5.win 3).blk t).view.emb (ix2 p q)) 1)) := by
    show V c main_arg7 (((cfg5.win 2).blk t).view.emb (ix1 q)) = _
    refine congrArg (V c main_arg7) (funext fun a => Fin.ext ?_)
    match a with
    | ⟨0, _⟩ => show win5_2.index t (0 : Fin 1) * 40 + 1 * q.val = win5_3.index t (1 : Fin 2) * 40 + 1 * q.val; omega
  refine congrArg₂ (fun a b : EReal => a + b) (Finset.sum_congr rfl fun k _ => ?_) hb
  have h0 : iblk5 V c 0 t (ix2 p k) = V c main_v112 (ix2 ((((cfg5.win 3).blk t).view.emb (ix2 p q)) 0) k) := by
    show V c main_v112 (((cfg5.win 0).blk t).view.emb (ix2 p k)) = _
    refine congrArg (V c main_v112) (funext fun a => Fin.ext ?_)
    match a with
    | ⟨0, _⟩ => show win5_0.index t (0 : Fin 2) * 5000 + 1 * p.val = win5_3.index t (0 : Fin 2) * 5000 + 1 * p.val; omega
    | ⟨1, _⟩ => show win5_0.index t (1 : Fin 2) * 64 + 1 * k.val = k.val; omega
  have h1 : iblk5 V c 1 t (ix2 k q) = V c main_arg6 (ix2 k ((((cfg5.win 3).blk t).view.emb (ix2 p q)) 1)) := by
    show V c main_arg6 (((cfg5.win 1).blk t).view.emb (ix2 k q)) = _
    refine congrArg (V c main_arg6) (funext fun a => Fin.ext ?_)
    match a with
    | ⟨0, _⟩ => show win5_1.index t (0 : Fin 2) * 64 + 1 * k.val = k.val; omega
    | ⟨1, _⟩ => show win5_1.index t (1 : Fin 2) * 40 + 1 * q.val = win5_3.index t (1 : Fin 2) * 40 + 1 * q.val; omega
  exact congrArg₂ (fun a b : EReal => a * b) h0 h1

/-- An index of the result array is in point t's block iff each coordinate is in the block's range on its axis. -/
theorem in_block (t : Fin cfg5.N) (i : S100000x40.Idx) :
    i ∈ ((cfg5.win 3).blk t).view.set ↔ ∀ a : Fin 2, win5_3.index t a * S5000x40.size a ≤ (i a).val ∧ (i a).val < win5_3.index t a * S5000x40.size a + S5000x40.size a := by
  show i ∈ ((View.whole main_v113).slice (win5_3.rect t)).set ↔ _
  rw [View.set_slice_whole, Rect.mem_set_unit]
  exact Iff.rfl

/-- Every row of the result lies in the block of the point numbered (row / 5000). -/
theorem covered (i : S100000x40.Idx) :
    ∃ t : Fin cfg5.N, (cfg5.win 3).flush t = true ∧ i ∈ ((cfg5.win 3).blk t).view.set := by
  have hi0 : (i 0).val < 100000 := (i 0).isLt
  have hi1 : (i 1).val < 40 := (i 1).isLt
  have hN : grid5.N = 20 := N_5
  have ht : (i 0).val / 5000 < grid5.N := by rw [hN]; omega
  obtain ⟨e0, e1, e2, e3, e4, e5, e6⟩ := blocks_at ⟨(i 0).val / 5000, ht⟩
  refine ⟨⟨(i 0).val / 5000, ht⟩, flush5_3 _, ?_⟩
  rw [in_block]
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    rw [e5]
    show (i 0).val / 5000 * 5000 ≤ (i 0).val ∧ (i 0).val < (i 0).val / 5000 * 5000 + 5000
    omega
  | ⟨1, _⟩ =>
    show win5_3.index ⟨(i 0).val / 5000, ht⟩ (1 : Fin 2) * 40 ≤ (i 1).val ∧ (i 1).val < win5_3.index ⟨(i 0).val / 5000, ht⟩ (1 : Fin 2) * 40 + 40
    rw [e6]
    omega

/-- The result array after the region: the whole product plus bias of the arrays the region finds. -/
theorem result (c : Dev nD) :
    (dat5 V c).arrAt 3 cfg5.N = rowsTimesPlus (V c main_v112) (V c main_arg6) (V c main_arg7) :=
  (dat5 V c).arrAt_eq_of_cover 3 _ (fun t _ => written_back V c t) covered

end Cert.KernelIdeal.Region5

end
-- ==== Proof.Region3.lean ====
/-
  Region 3: a block of 5000 rows times the whole 64×64 matrix, twenty blocks one after the other.

  At grid point t the body loads rows 5000·t … 5000·t + 4999 of the left array and the whole matrix, multiplies them into
  a zero accumulator (the changes of float format keep every value), and stores the 5000×64 block, which is written back
  as rows 5000·t … of the result.  Entry (p, q) of a block is row p of the block times the matrix at column q, so the block
  is the same rows of the whole product; the twenty blocks cover every row, and the result array ends as the whole product.
-/
import proofs.«111088_j68899865362570_1_alg».proof.Proof.Gen.KernelIdeal.Frame
import proofs.«111088_j68899865362570_1_alg».proof.Proof.LibRowsProduct
import Idealize.ShloMosaic.Lib.Pipeline.Value
import Idealize.ShloMosaic.Lib.ValueIdx

noncomputable section

namespace Cert.KernelIdeal.Region3

open Idealize.ShloMosaic Idealize.ShloMosaic.TcCoe Idealize.ShloMosaic.ValueIdx Idealize.SL.Sem
open Cert.KernelIdeal Cert.KernelIdeal.Gen Cert.RowDot Cert.RowsProduct
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry: row (y 0) of the loaded block times the loaded matrix, at column (y 1). -/
theorem stored_apply (x0 : Vec Ideal S5000x64 .f32) (x1 : Vec Ideal S64x64 .f32) (y : S5000x64.Idx) :
    k3_pay1 x0 x1 y = rowDot (rowOf x0 (y 0)) x1 (y 1) := by
  unfold k3_pay1
  rw [shapeCast_self, shapeCast_self]
  exact blockDot_apply none bitsLt_bf16_f32 bitsLt_bf16_f32 x0 x1 y

/-- Where the three windows sit at point t: the left block and the result block at block row t, the matrix whole. -/
theorem blocks_at : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the whole product of the arrays the region finds. -/
theorem written_back (c : Dev nD) (t : Fin cfg3.N) :
    (dat3 V c).flushed 2 t = ((cfg3.win 2).blk t).view.read (Elt Ideal) (rowsTimes (V c main_v89) (V c main_v91)) := by
  show (cfg3.win 2).cut (grid3.coords t) ((dat3 V c).after 2 t) = _
  rw [after3_2]
  unfold out3_2
  rw [View.canon_unit_zero origin]
  simp only [View.ld_unit_zero (S := S5000x64) origin, View.ld_unit_zero (S := S64x64) origin]
  obtain ⟨e0, e1, e2, e3, e4, e5⟩ := blocks_at t
  funext j
  show k3_pay1 (iblk3 V c 0 t) (iblk3 V c 1 t) j = rowsTimes (V c main_v89) (V c main_v91) (((cfg3.win 2).blk t).view.emb j)
  refine (stored_apply _ _ j).trans ?_
  unfold rowsTimes rowDot rowOf
  refine Finset.sum_congr rfl fun k _ => ?_
  have h0 : iblk3 V c 0 t (ix2 (j 0) k) = V c main_v89 (ix2 ((((cfg3.win 2).blk t).view.emb j) 0) k) := by
    show V c main_v89 (((cfg3.win 0).blk t).view.emb (ix2 (j 0) k)) = _
    refine congrArg (V c main_v89) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * k.val = k.val; omega
  have h1 : iblk3 V c 1 t (ix2 k (j 1)) = V c main_v91 (ix2 k ((((cfg3.win 2).blk t).view.emb j) 1)) := by
    show V c main_v91 (((cfg3.win 1).blk t).view.emb (ix2 k (j 1))) = _
    refine congrArg (V c main_v91) (funext fun a => Fin.ext ?_)
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega
  exact congrArg₂ (fun a b : EReal => a * b) h0 h1

/-- An index of the result array is in point t's block iff each coordinate is in the block's range on its axis. -/
theorem in_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v92).slice (win3_2.rect t)).set ↔ _
  rw [View.set_slice_whole, Rect.mem_set_unit]
  exact Iff.rfl

/-- Every row of the result lies in the block of the point numbered (row / 5000). -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 20 := N_3
  have ht : (i 0).val / 5000 < grid3.N := by rw [hN]; omega
  obtain ⟨e0, e1, e2, e3, e4, e5⟩ := blocks_at ⟨(i 0).val / 5000, ht⟩
  refine ⟨⟨(i 0).val / 5000, ht⟩, flush3_2 _, ?_⟩
  rw [in_block]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]
    omega

/-- The result array after the region: the whole product of the two arrays the region finds. -/
theorem result (c : Dev nD) :
    (dat3 V c).arrAt 2 cfg3.N = rowsTimes (V c main_v89) (V c main_v91) :=
  (dat3 V c).arrAt_eq_of_cover 2 (rowsTimes (V c main_v89) (V c main_v91)) (fun t _ => written_back V c t) covered

end Cert.KernelIdeal.Region3

end
-- ==== Proof.Region2.lean ====
/-
  Region 2: a block of 5000 rows times the whole 64×64 matrix, twenty blocks one after the other.

  At grid point t the body loads rows 5000·t … 5000·t + 4999 of the left array and the whole matrix, multiplies them into
  a zero accumulator (the changes of float format keep every value), and stores the 5000×64 block, which is written back
  as rows 5000·t … of the result.  Entry (p, q) of a block is row p of the block times the matrix at column q, so the block
  is the same rows of the whole product; the twenty blocks cover every row, and the result array ends as the whole product.
-/
import proofs.«111088_j68899865362570_1_alg».proof.Proof.Gen.KernelIdeal.Frame
import proofs.«111088_j68899865362570_1_alg».proof.Proof.LibRowsProduct
import Idealize.ShloMosaic.Lib.Pipeline.Value
import Idealize.ShloMosaic.Lib.ValueIdx

noncomputable section

namespace Cert.KernelIdeal.Region2

open Idealize.ShloMosaic Idealize.ShloMosaic.TcCoe Idealize.ShloMosaic.ValueIdx Idealize.SL.Sem
open Cert.KernelIdeal Cert.KernelIdeal.Gen Cert.RowDot Cert.RowsProduct
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry: row (y 0) of the loaded block times the loaded matrix, at column (y 1). -/
theorem stored_apply (x0 : Vec Ideal S5000x64 .f32) (x1 : Vec Ideal S64x64 .f32) (y : S5000x64.Idx) :
    k2_pay1 x0 x1 y = rowDot (rowOf x0 (y 0)) x1 (y 1) := by
  unfold k2_pay1
  rw [shapeCast_self, shapeCast_self]
  exact blockDot_apply none bitsLt_bf16_f32 bitsLt_bf16_f32 x0 x1 y

/-- Where the three windows sit at point t: the left block and the result block at block row t, the matrix whole. -/
theorem blocks_at : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the whole product of the arrays the region finds. -/
theorem written_back (c : Dev nD) (t : Fin cfg2.N) :
    (dat2 V c).flushed 2 t = ((cfg2.win 2).blk t).view.read (Elt Ideal) (rowsTimes (V c main_v67) (V c main_v69)) := by
  show (cfg2.win 2).cut (grid2.coords t) ((dat2 V c).after 2 t) = _
  rw [after2_2]
  unfold out2_2
  rw [View.canon_unit_zero origin]
  simp only [View.ld_unit_zero (S := S5000x64) origin, View.ld_unit_zero (S := S64x64) origin]
  obtain ⟨e0, e1, e2, e3, e4, e5⟩ := blocks_at t
  funext j
  show k2_pay1 (iblk2 V c 0 t) (iblk2 V c 1 t) j = rowsTimes (V c main_v67) (V c main_v69) (((cfg2.win 2).blk t).view.emb j)
  refine (stored_apply _ _ j).trans ?_
  unfold rowsTimes rowDot rowOf
  refine Finset.sum_congr rfl fun k _ => ?_
  have h0 : iblk2 V c 0 t (ix2 (j 0) k) = V c main_v67 (ix2 ((((cfg2.win 2).blk t).view.emb j) 0) k) := by
    show V c main_v67 (((cfg2.win 0).blk t).view.emb (ix2 (j 0) k)) = _
    refine congrArg (V c main_v67) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : iblk2 V c 1 t (ix2 k (j 1)) = V c main_v69 (ix2 k ((((cfg2.win 2).blk t).view.emb j) 1)) := by
    show V c main_v69 (((cfg2.win 1).blk t).view.emb (ix2 k (j 1))) = _
    refine congrArg (V c main_v69) (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  exact congrArg₂ (fun a b : EReal => a * b) h0 h1

/-- An index of the result array is in point t's block iff each coordinate is in the block's range on its axis. -/
theorem in_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v70).slice (win2_2.rect t)).set ↔ _
  rw [View.set_slice_whole, Rect.mem_set_unit]
  exact Iff.rfl

/-- Every row of the result lies in the block of the point numbered (row / 5000). -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  have ht : (i 0).val / 5000 < grid2.N := by rw [hN]; omega
  obtain ⟨e0, e1, e2, e3, e4, e5⟩ := blocks_at ⟨(i 0).val / 5000, ht⟩
  refine ⟨⟨(i 0).val / 5000, ht⟩, flush2_2 _, ?_⟩
  rw [in_block]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]
    omega

/-- The result array after the region: the whole product of the two arrays the region finds. -/
theorem result (c : Dev nD) :
    (dat2 V c).arrAt 2 cfg2.N = rowsTimes (V c main_v67) (V c main_v69) :=
  (dat2 V c).arrAt_eq_of_cover 2 (rowsTimes (V c main_v67) (V c main_v69)) (fun t _ => written_back V c t) covered

end Cert.KernelIdeal.Region2

end
-- ==== Proof.Region1.lean ====
/-
  Region 1: a block of 5000 rows times the whole 64×64 matrix, twenty blocks one after the other.

  At grid point t the body loads rows 5000·t … 5000·t + 4999 of the left array and the whole matrix, multiplies them into
  a zero accumulator (the changes of float format keep every value), and stores the 5000×64 block, which is written back
  as rows 5000·t … of the result.  Entry (p, q) of a block is row p of the block times the matrix at column q, so the block
  is the same rows of the whole product; the twenty blocks cover every row, and the result array ends as the whole product.
-/
import proofs.«111088_j68899865362570_1_alg».proof.Proof.Gen.KernelIdeal.Frame
import proofs.«111088_j68899865362570_1_alg».proof.Proof.LibRowsProduct
import Idealize.ShloMosaic.Lib.Pipeline.Value
import Idealize.ShloMosaic.Lib.ValueIdx

noncomputable section

namespace Cert.KernelIdeal.Region1

open Idealize.ShloMosaic Idealize.ShloMosaic.TcCoe Idealize.ShloMosaic.ValueIdx Idealize.SL.Sem
open Cert.KernelIdeal Cert.KernelIdeal.Gen Cert.RowDot Cert.RowsProduct
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry: row (y 0) of the loaded block times the loaded matrix, at column (y 1). -/
theorem stored_apply (x0 : Vec Ideal S5000x64 .f32) (x1 : Vec Ideal S64x64 .f32) (y : S5000x64.Idx) :
    k1_pay1 x0 x1 y = rowDot (rowOf x0 (y 0)) x1 (y 1) := by
  unfold k1_pay1
  rw [shapeCast_self, shapeCast_self]
  exact blockDot_apply none bitsLt_bf16_f32 bitsLt_bf16_f32 x0 x1 y

/-- Where the three windows sit at point t: the left block and the result block at block row t, the matrix whole. -/
theorem blocks_at : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the whole product of the arrays the region finds. -/
theorem written_back (c : Dev nD) (t : Fin cfg1.N) :
    (dat1 V c).flushed 2 t = ((cfg1.win 2).blk t).view.read (Elt Ideal) (rowsTimes (V c main_v45) (V c main_v47)) := by
  show (cfg1.win 2).cut (grid1.coords t) ((dat1 V c).after 2 t) = _
  rw [after1_2]
  unfold out1_2
  rw [View.canon_unit_zero origin]
  simp only [View.ld_unit_zero (S := S5000x64) origin, View.ld_unit_zero (S := S64x64) origin]
  obtain ⟨e0, e1, e2, e3, e4, e5⟩ := blocks_at t
  funext j
  show k1_pay1 (iblk1 V c 0 t) (iblk1 V c 1 t) j = rowsTimes (V c main_v45) (V c main_v47) (((cfg1.win 2).blk t).view.emb j)
  refine (stored_apply _ _ j).trans ?_
  unfold rowsTimes rowDot rowOf
  refine Finset.sum_congr rfl fun k _ => ?_
  have h0 : iblk1 V c 0 t (ix2 (j 0) k) = V c main_v45 (ix2 ((((cfg1.win 2).blk t).view.emb j) 0) k) := by
    show V c main_v45 (((cfg1.win 0).blk t).view.emb (ix2 (j 0) k)) = _
    refine congrArg (V c main_v45) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  have h1 : iblk1 V c 1 t (ix2 k (j 1)) = V c main_v47 (ix2 k ((((cfg1.win 2).blk t).view.emb j) 1)) := by
    show V c main_v47 (((cfg1.win 1).blk t).view.emb (ix2 k (j 1))) = _
    refine congrArg (V c main_v47) (funext fun a => Fin.ext ?_)
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega
  exact congrArg₂ (fun a b : EReal => a * b) h0 h1

/-- An index of the result array is in point t's block iff each coordinate is in the block's range on its axis. -/
theorem in_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Every row of the result lies in the block of the point numbered (row / 5000). -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 20 := N_1
  have ht : (i 0).val / 5000 < grid1.N := by rw [hN]; omega
  obtain ⟨e0, e1, e2, e3, e4, e5⟩ := blocks_at ⟨(i 0).val / 5000, ht⟩
  refine ⟨⟨(i 0).val / 5000, ht⟩, flush1_2 _, ?_⟩
  rw [in_block]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]
    omega

/-- The result array after the region: the whole product of the two arrays the region finds. -/
theorem result (c : Dev nD) :
    (dat1 V c).arrAt 2 cfg1.N = rowsTimes (V c main_v45) (V c main_v47) :=
  (dat1 V c).arrAt_eq_of_cover 2 (rowsTimes (V c main_v45) (V c main_v47)) (fun t _ => written_back V c t) covered

end Cert.KernelIdeal.Region1

end
-- ==== Proof.Region0.lean ====
/-
  Region 0: a block of 5000 rows times the whole 128×64 matrix, twenty blocks one after the other.

  At grid point t the body loads rows 5000·t … 5000·t + 4999 of the left array and the whole matrix, multiplies them into
  a zero accumulator (the changes of float format keep every value), and stores the 5000×64 block, which is written back
  as rows 5000·t … of the result.  Entry (p, q) of a block is row p of the block times the matrix at column q, so the block
  is the same rows of the whole product; the twenty blocks cover every row, and the result array ends as the whole product.
-/
import proofs.«111088_j68899865362570_1_alg».proof.Proof.Gen.KernelIdeal.Frame
import proofs.«111088_j68899865362570_1_alg».proof.Proof.LibRowsProduct
import Idealize.ShloMosaic.Lib.Pipeline.Value
import Idealize.ShloMosaic.Lib.ValueIdx

noncomputable section

namespace Cert.KernelIdeal.Region0

open Idealize.ShloMosaic Idealize.ShloMosaic.TcCoe Idealize.ShloMosaic.ValueIdx Idealize.SL.Sem
open Cert.KernelIdeal Cert.KernelIdeal.Gen Cert.RowDot Cert.RowsProduct
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry: row (y 0) of the loaded block times the loaded matrix, at column (y 1). -/
theorem stored_apply (x0 : Vec Ideal S5000x128 .f32) (x1 : Vec Ideal S128x64 .f32) (y : S5000x64.Idx) :
    k0_pay1 x0 x1 y = rowDot (rowOf x0 (y 0)) x1 (y 1) := by
  unfold k0_pay1
  exact blockDot_apply none bitsLt_bf16_f32 bitsLt_bf16_f32 x0 x1 y

/-- Where the three windows sit at point t: the left block and the result block at block row t, the matrix whole. -/
theorem blocks_at : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the whole product of the arrays the region finds. -/
theorem written_back (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  obtain ⟨e0, e1, e2, e3, e4, e5⟩ := blocks_at t
  funext j
  show k0_pay1 (iblk0 V c 0 t) (iblk0 V c 1 t) j = rowsTimes (V c main_arg0) (V c main_arg2) (((cfg0.win 2).blk t).view.emb j)
  refine (stored_apply _ _ j).trans ?_
  unfold rowsTimes rowDot rowOf
  refine Finset.sum_congr rfl fun k _ => ?_
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  exact congrArg₂ (fun a b : EReal => a * b) h0 h1

/-- An index of the result array is in point t's block iff each coordinate is in the block's range on its axis. -/
theorem in_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v28).slice (win0_2.rect t)).set ↔ _
  rw [View.set_slice_whole, Rect.mem_set_unit]
  exact Iff.rfl

/-- Every row of the result lies in the block of the point numbered (row / 5000). -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  have ht : (i 0).val / 5000 < grid0.N := by rw [hN]; omega
  obtain ⟨e0, e1, e2, e3, e4, e5⟩ := blocks_at ⟨(i 0).val / 5000, ht⟩
  refine ⟨⟨(i 0).val / 5000, ht⟩, flush0_2 _, ?_⟩
  rw [in_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]
    omega

/-- The result array after the region: the whole product of the two arrays the region finds. -/
theorem result (c : Dev nD) :
    (dat0 V c).arrAt 2 cfg0.N = rowsTimes (V c main_arg0) (V c main_arg2) :=
  (dat0 V c).arrAt_eq_of_cover 2 (rowsTimes (V c main_arg0) (V c main_arg2)) (fun t _ => written_back V c t) covered

end Cert.KernelIdeal.Region0

end
-- ==== Proof.WalkA.lean ====
import proofs.«111088_j68899865362570_1_alg».proof.Proof.Gen.KernelIdeal.Frame
import proofs.«111088_j68899865362570_1_alg».proof.Proof.Gen.ReferenceIdeal.Read
import proofs.«111088_j68899865362570_1_alg».proof.Proof.Region0
import proofs.«111088_j68899865362570_1_alg».proof.Proof.LibRowsProduct
import Idealize.ShloMosaic.Lib.StableHlo.Run

set_option maxRecDepth 16384

/-
  The buffers' contents from the launch to the exit of region 0, each as a stage of the reference's own computation.

  Before region 0 the host builds the edge lists with the self-loops appended (sources, destinations) and the
  per-edge normalisation; these are the same operations, in the same order, as the reference's, so each buffer holds the
  reference's stage of the edge-index argument.  Region 0 leaves its result at the whole product of the node features
  with the first weight matrix, which is the reference's first dot_general; every other buffer passes the region
  unchanged.
-/
noncomputable section

namespace Cert.KernelIdeal.Walk

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

open Cert.RowsProduct

/-! ## After the first stretch (region 0's entry) -/

theorem W1_v3 : W1 m ρ c (Proc.devRef .tc main_v3) = val_main_v3 (F := Ideal) (m ((c : Thread nD τ).loc main_arg1)) := by
  dsimp only [W1, hostOps0]
  after_results_simp
  rfl

theorem W1_v6 : W1 m ρ c (Proc.devRef .tc main_v6) = val_main_v6 (F := Ideal) (m ((c : Thread nD τ).loc main_arg1)) := by
  dsimp only [W1, hostOps0]
  after_results_simp
  rfl

theorem W1_v27 : W1 m ρ c (Proc.devRef .tc main_v27) = val_main_v27 (F := Ideal) (m ((c : Thread nD τ).loc main_arg1)) := by
  dsimp only [W1, hostOps0]
  after_results_simp
  rfl

theorem W1_arg0 : W1 m ρ c (Proc.devRef .tc main_arg0) = m ((c : Thread nD τ).loc main_arg0) := by
  dsimp only [W1, hostOps0]
  after_results_simp

theorem W1_arg2 : W1 m ρ c (Proc.devRef .tc main_arg2) = m ((c : Thread nD τ).loc main_arg2) := by
  dsimp only [W1, hostOps0]
  after_results_simp

theorem W1_arg3 : W1 m ρ c (Proc.devRef .tc main_arg3) = m ((c : Thread nD τ).loc main_arg3) := by
  dsimp only [W1, hostOps0]
  after_results_simp

theorem W1_arg4 : W1 m ρ c (Proc.devRef .tc main_arg4) = m ((c : Thread nD τ).loc main_arg4) := by
  dsimp only [W1, hostOps0]
  after_results_simp

theorem W1_arg5 : W1 m ρ c (Proc.devRef .tc main_arg5) = m ((c : Thread nD τ).loc main_arg5) := by
  dsimp only [W1, hostOps0]
  after_results_simp

/-! ## After region 0 -/

/-- Region 0's result is the reference's first product. -/
theorem W2_v28 : W2 m ρ c (Proc.devRef .tc main_v28) = val_main_v28 (F := Ideal) (m ((c : Thread nD τ).loc main_arg0)) (m ((c : Thread nD τ).loc main_arg2)) := by
  refine (W2_arr m ρ c 2).trans ((Region0.result (V1 m ρ) c).trans ?_)
  rw [show V1 m ρ c main_arg0 = _ from W1_arg0 m ρ c, show V1 m ρ c main_arg2 = _ from W1_arg2 m ρ c]
  exact (hostDot_eq_rowsTimes none _ _).symm

theorem W2_v3 : W2 m ρ c (Proc.devRef .tc main_v3) = val_main_v3 (F := Ideal) (m ((c : Thread nD τ).loc main_arg1)) :=
  (W2_of_ne m ρ c main_v3 (by decide)).trans (W1_v3 m ρ c)

theorem W2_v6 : W2 m ρ c (Proc.devRef .tc main_v6) = val_main_v6 (F := Ideal) (m ((c : Thread nD τ).loc main_arg1)) :=
  (W2_of_ne m ρ c main_v6 (by decide)).trans (W1_v6 m ρ c)

theorem W2_v27 : W2 m ρ c (Proc.devRef .tc main_v27) = val_main_v27 (F := Ideal) (m ((c : Thread nD τ).loc main_arg1)) :=
  (W2_of_ne m ρ c main_v27 (by decide)).trans (W1_v27 m ρ c)

theorem W2_arg3 : W2 m ρ c (Proc.devRef .tc main_arg3) = m ((c : Thread nD τ).loc main_arg3) :=
  (W2_of_ne m ρ c main_arg3 (by decide)).trans (W1_arg3 m ρ c)

theorem W2_arg4 : W2 m ρ c (Proc.devRef .tc main_arg4) = m ((c : Thread nD τ).loc main_arg4) :=
  (W2_of_ne m ρ c main_arg4 (by decide)).trans (W1_arg4 m ρ c)

theorem W2_arg5 : W2 m ρ c (Proc.devRef .tc main_arg5) = m ((c : Thread nD τ).loc main_arg5) :=
  (W2_of_ne m ρ c main_arg5 (by decide)).trans (W1_arg5 m ρ c)

end Cert.KernelIdeal.Walk

end
-- ==== Proof.WalkB.lean ====
import proofs.«111088_j68899865362570_1_alg».proof.Proof.Gen.KernelIdeal.Frame
import proofs.«111088_j68899865362570_1_alg».proof.Proof.Gen.ReferenceIdeal.Read
import proofs.«111088_j68899865362570_1_alg».proof.Proof.Region1
import proofs.«111088_j68899865362570_1_alg».proof.Proof.LibRowsProduct
import proofs.«111088_j68899865362570_1_alg».proof.Proof.WalkA
import Idealize.ShloMosaic.Lib.StableHlo.Run

set_option maxRecDepth 16384

/-
  From the exit of region 0 to the exit of region 1.

  The host gathers the rows of the first product at the source nodes, scales them by the edge normalisation, sums them
  into the destination rows, adds the first bias and applies the rectifier; it then slices the first hidden weight
  matrix out of the stack.  These are the reference's operations on the reference's stages, so the layer's output and
  the weight matrix are the reference's.  Region 1 multiplies them: its result is the reference's second dot_general.
-/
noncomputable section

namespace Cert.KernelIdeal.Walk

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

open Cert.RowsProduct

/-! ## The three stretches after region 0 (to region 1's entry) -/

/-- The gathered rows scaled by the edge normalisation, summed into their destination rows, plus the bias: the reference's operations on the reference's stages. -/
theorem W3_v44 : W3 m ρ c (Proc.devRef .tc main_v44) = val_main_v44 (F := Ideal) (m ((c : Thread nD τ).loc main_arg0)) (m ((c : Thread nD τ).loc main_arg1)) (m ((c : Thread nD τ).loc main_arg2)) (m ((c : Thread nD τ).loc main_arg3)) := by
  dsimp only [W3, hostOps1]
  after_results_simp
  rw [W2_v28 m ρ c, W2_v3 m ρ c, W2_v6 m ρ c, W2_v27 m ρ c, W2_arg3 m ρ c]
  rfl

/-- The rectifier's stretch: the maximum of the sum with the all-zero array, whatever the contents before it. -/
theorem relu_v45 (W : Valuation τ sig (Elt Ideal)) :
    StableHlo.after (hostOps1_1 (F := Ideal)) W (Proc.devRef .tc main_v45)
      = maximumf (F := Ideal) (s := S100000x64) (φ := .f32) (W (Proc.devRef .tc main_v44))
          (broadcastInDim S100000x64 ![] bcast_S_S100000x64 (constant (F := Ideal) S_ .f32 0x00000000#32)) := by
  dsimp only [hostOps1_1]
  after_results_simp
  rfl

/-- The layer's output: the rectifier of that sum. -/
theorem W4_v45 : W4 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) :=
  (relu_v45 (W3 m ρ c)).trans (by rw [W3_v44 m ρ c]; rfl)

/-- The weight-slicing stretch does not write the layer's output, whatever the contents before it. -/
theorem slice_keeps_v45 (W : Valuation τ sig (Elt Ideal)) :
    StableHlo.after (hostOps1_2 (F := Ideal)) W (Proc.devRef .tc main_v45) = W (Proc.devRef .tc main_v45) := by
  dsimp only [hostOps1_2]
  after_results_simp

theorem W5_v45 : W5 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) :=
  (slice_keeps_v45 (W4 m ρ c)).trans (W4_v45 m ρ c)

/-- The next layer's weight matrix: the same slice of the stacked weights, recast. -/
theorem W5_v47 : W5 m ρ c (Proc.devRef .tc main_v47) = val_main_v47 (F := Ideal) (m ((c : Thread nD τ).loc main_arg4)) := by
  dsimp only [W5, W4, W3, hostOps1_2, hostOps1_1, hostOps1]
  after_results_simp
  rw [W2_arg4 m ρ c]
  rfl

theorem W5_v3 : W5 m ρ c (Proc.devRef .tc main_v3) = val_main_v3 (F := Ideal) (m ((c : Thread nD τ).loc main_arg1)) := by
  dsimp only [W5, W4, W3, hostOps1_2, hostOps1_1, hostOps1]
  after_results_simp
  exact W2_v3 m ρ c

theorem W5_v6 : W5 m ρ c (Proc.devRef .tc main_v6) = val_main_v6 (F := Ideal) (m ((c : Thread nD τ).loc main_arg1)) := by
  dsimp only [W5, W4, W3, hostOps1_2, hostOps1_1, hostOps1]
  after_results_simp
  exact W2_v6 m ρ c

theorem W5_v27 : W5 m ρ c (Proc.devRef .tc main_v27) = val_main_v27 (F := Ideal) (m ((c : Thread nD τ).loc main_arg1)) := by
  dsimp only [W5, W4, W3, hostOps1_2, hostOps1_1, hostOps1]
  after_results_simp
  exact W2_v27 m ρ c

theorem W5_arg4 : W5 m ρ c (Proc.devRef .tc main_arg4) = m ((c : Thread nD τ).loc main_arg4) := by
  dsimp only [W5, W4, W3, hostOps1_2, hostOps1_1, hostOps1]
  after_results_simp
  exact W2_arg4 m ρ c

theorem W5_arg5 : W5 m ρ c (Proc.devRef .tc main_arg5) = m ((c : Thread nD τ).loc main_arg5) := by
  dsimp only [W5, W4, W3, hostOps1_2, hostOps1_1, hostOps1]
  after_results_simp
  exact W2_arg5 m ρ c

/-! ## After region 1 -/

/-- Region 1's result is the reference's second product. -/
theorem W6_v48 : W6 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Region1.result (V5 m ρ) c).trans ?_)
  rw [show V5 m ρ c main_v45 = _ from W5_v45 m ρ c, show V5 m ρ c main_v47 = _ from W5_v47 m ρ c]
  exact (hostDot_eq_rowsTimes none _ _).symm

theorem W6_v45 : W6 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) :=
  ((W6_arr m ρ c 0).trans (((dat1 (V5 m ρ) c).arrAt_in 0 rfl _).trans (A_eq1 (V5 m ρ) c 0))).trans (W5_v45 m ρ c)

theorem W6_v3 : W6 m ρ c (Proc.devRef .tc main_v3) = val_main_v3 (F := Ideal) (m ((c : Thread nD τ).loc main_arg1)) :=
  (W6_of_ne m ρ c main_v3 (by decide)).trans (W5_v3 m ρ c)

theorem W6_v6 : W6 m ρ c (Proc.devRef .tc main_v6) = val_main_v6 (F := Ideal) (m ((c : Thread nD τ).loc main_arg1)) :=
  (W6_of_ne m ρ c main_v6 (by decide)).trans (W5_v6 m ρ c)

theorem W6_v27 : W6 m ρ c (Proc.devRef .tc main_v27) = val_main_v27 (F := Ideal) (m ((c : Thread nD τ).loc main_arg1)) :=
  (W6_of_ne m ρ c main_v27 (by decide)).trans (W5_v27 m ρ c)

theorem W6_arg4 : W6 m ρ c (Proc.devRef .tc main_arg4) = m ((c : Thread nD τ).loc main_arg4) :=
  (W6_of_ne m ρ c main_arg4 (by decide)).trans (W5_arg4 m ρ c)

theorem W6_arg5 : W6 m ρ c (Proc.devRef .tc main_arg5) = m ((c : Thread nD τ).loc main_arg5) :=
  (W6_of_ne m ρ c main_arg5 (by decide)).trans (W5_arg5 m ρ c)

end Cert.KernelIdeal.Walk

end
-- ==== Proof.WalkC.lean ====
import proofs.«111088_j68899865362570_1_alg».proof.Proof.Gen.KernelIdeal.Frame
import proofs.«111088_j68899865362570_1_alg».proof.Proof.Gen.ReferenceIdeal.Read
import proofs.«111088_j68899865362570_1_alg».proof.Proof.Region2
import proofs.«111088_j68899865362570_1_alg».proof.Proof.LibRowsProduct
import proofs.«111088_j68899865362570_1_alg».proof.Proof.WalkB
import Idealize.ShloMosaic.Lib.StableHlo.Run

set_option maxRecDepth 16384

/-
  From the exit of region 1 to the exit of region 2.

  The host slices the first hidden bias out of its stack, gathers the rows of the second product at the source nodes,
  scales them by the edge normalisation, sums them into the destination rows, adds the bias and applies the rectifier;
  then it slices the second hidden weight matrix.  These are the reference's operations on the reference's stages.
  Region 2 multiplies the layer's output by that matrix: its result is the reference's third dot_general.  The first
  layer's output is kept for the final maximum.
-/
noncomputable section

namespace Cert.KernelIdeal.Walk

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

open Cert.RowsProduct

/-! ## The three stretches after region 1 (to region 2's entry) -/

/-- The gathered rows scaled by the edge normalisation, summed into their destination rows, plus the bias: the reference's operations on the reference's stages. -/
theorem W7_v66 : W7 m ρ c (Proc.devRef .tc main_v66) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W7, hostOps2]
  after_results_simp
  rw [W6_v48 m ρ c, W6_v3 m ρ c, W6_v6 m ρ c, W6_v27 m ρ c, W6_arg5 m ρ c]
  rfl

/-- The rectifier's stretch: the maximum of the sum with the all-zero array, whatever the contents before it. -/
theorem relu_v67 (W : Valuation τ sig (Elt Ideal)) :
    StableHlo.after (hostOps2_1 (F := Ideal)) W (Proc.devRef .tc main_v67)
      = maximumf (F := Ideal) (s := S100000x64) (φ := .f32) (W (Proc.devRef .tc main_v66))
          (broadcastInDim S100000x64 ![] bcast_S_S100000x64 (constant (F := Ideal) S_ .f32 0x00000000#32)) := by
  dsimp only [hostOps2_1]
  after_results_simp
  rfl

/-- The layer's output: the rectifier of that sum. -/
theorem W8_v67 : W8 m ρ c (Proc.devRef .tc main_v67) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (relu_v67 (W7 m ρ c)).trans (by rw [W7_v66 m ρ c]; rfl)

/-- The weight-slicing stretch does not write the layer's output, whatever the contents before it. -/
theorem slice_keeps_v67 (W : Valuation τ sig (Elt Ideal)) :
    StableHlo.after (hostOps2_2 (F := Ideal)) W (Proc.devRef .tc main_v67) = W (Proc.devRef .tc main_v67) := by
  dsimp only [hostOps2_2]
  after_results_simp

theorem W9_v67 : W9 m ρ c (Proc.devRef .tc main_v67) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (slice_keeps_v67 (W8 m ρ c)).trans (W8_v67 m ρ c)

/-- The next layer's weight matrix: the same slice of the stacked weights, recast. -/
theorem W9_v69 : W9 m ρ c (Proc.devRef .tc main_v69) = val_main_v69 (F := Ideal) (m ((c : Thread nD τ).loc main_arg4)) := by
  dsimp only [W9, W8, W7, hostOps2_2, hostOps2_1, hostOps2]
  after_results_simp
  rw [W6_arg4 m ρ c]
  rfl

theorem W9_v45 : W9 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) := by
  dsimp only [W9, W8, W7, hostOps2_2, hostOps2_1, hostOps2]
  after_results_simp
  exact W6_v45 m ρ c

theorem W9_v3 : W9 m ρ c (Proc.devRef .tc main_v3) = val_main_v3 (F := Ideal) (m ((c : Thread nD τ).loc main_arg1)) := by
  dsimp only [W9, W8, W7, hostOps2_2, hostOps2_1, hostOps2]
  after_results_simp
  exact W6_v3 m ρ c

theorem W9_v6 : W9 m ρ c (Proc.devRef .tc main_v6) = val_main_v6 (F := Ideal) (m ((c : Thread nD τ).loc main_arg1)) := by
  dsimp only [W9, W8, W7, hostOps2_2, hostOps2_1, hostOps2]
  after_results_simp
  exact W6_v6 m ρ c

theorem W9_v27 : W9 m ρ c (Proc.devRef .tc main_v27) = val_main_v27 (F := Ideal) (m ((c : Thread nD τ).loc main_arg1)) := by
  dsimp only [W9, W8, W7, hostOps2_2, hostOps2_1, hostOps2]
  after_results_simp
  exact W6_v27 m ρ c

theorem W9_arg4 : W9 m ρ c (Proc.devRef .tc main_arg4) = m ((c : Thread nD τ).loc main_arg4) := by
  dsimp only [W9, W8, W7, hostOps2_2, hostOps2_1, hostOps2]
  after_results_simp
  exact W6_arg4 m ρ c

theorem W9_arg5 : W9 m ρ c (Proc.devRef .tc main_arg5) = m ((c : Thread nD τ).loc main_arg5) := by
  dsimp only [W9, W8, W7, hostOps2_2, hostOps2_1, hostOps2]
  after_results_simp
  exact W6_arg5 m ρ c

/-! ## After region 2 -/

/-- Region 2's result is the reference's third product. -/
theorem W10_v70 : W10 m ρ c (Proc.devRef .tc main_v70) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 2).trans ((Region2.result (V9 m ρ) c).trans ?_)
  rw [show V9 m ρ c main_v67 = _ from W9_v67 m ρ c, show V9 m ρ c main_v69 = _ from W9_v69 m ρ c]
  exact (hostDot_eq_rowsTimes none _ _).symm

theorem W10_v67 : W10 m ρ c (Proc.devRef .tc main_v67) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W10_arr m ρ c 0).trans (((dat2 (V9 m ρ) c).arrAt_in 0 rfl _).trans (A_eq2 (V9 m ρ) c 0))).trans (W9_v67 m ρ c)

theorem W10_v45 : W10 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) :=
  (W10_of_ne m ρ c main_v45 (by decide)).trans (W9_v45 m ρ c)

theorem W10_v3 : W10 m ρ c (Proc.devRef .tc main_v3) = val_main_v3 (F := Ideal) (m ((c : Thread nD τ).loc main_arg1)) :=
  (W10_of_ne m ρ c main_v3 (by decide)).trans (W9_v3 m ρ c)

theorem W10_v6 : W10 m ρ c (Proc.devRef .tc main_v6) = val_main_v6 (F := Ideal) (m ((c : Thread nD τ).loc main_arg1)) :=
  (W10_of_ne m ρ c main_v6 (by decide)).trans (W9_v6 m ρ c)

theorem W10_v27 : W10 m ρ c (Proc.devRef .tc main_v27) = val_main_v27 (F := Ideal) (m ((c : Thread nD τ).loc main_arg1)) :=
  (W10_of_ne m ρ c main_v27 (by decide)).trans (W9_v27 m ρ c)

theorem W10_arg4 : W10 m ρ c (Proc.devRef .tc main_arg4) = m ((c : Thread nD τ).loc main_arg4) :=
  (W10_of_ne m ρ c main_arg4 (by decide)).trans (W9_arg4 m ρ c)

theorem W10_arg5 : W10 m ρ c (Proc.devRef .tc main_arg5) = m ((c : Thread nD τ).loc main_arg5) :=
  (W10_of_ne m ρ c main_arg5 (by decide)).trans (W9_arg5 m ρ c)

end Cert.KernelIdeal.Walk

end
-- ==== Proof.WalkD.lean ====
import proofs.«111088_j68899865362570_1_alg».proof.Proof.Gen.KernelIdeal.Frame
import proofs.«111088_j68899865362570_1_alg».proof.Proof.Gen.ReferenceIdeal.Read
import proofs.«111088_j68899865362570_1_alg».proof.Proof.Region3
import proofs.«111088_j68899865362570_1_alg».proof.Proof.LibRowsProduct
import proofs.«111088_j68899865362570_1_alg».proof.Proof.WalkC
import Idealize.ShloMosaic.Lib.StableHlo.Run

set_option maxRecDepth 16384

/-
  From the exit of region 2 to the exit of region 3.

  The same layer once more: the second hidden bias, the gathered and scaled rows of the third product summed into their
  destination rows, the bias, the rectifier; then the third hidden weight matrix.  Region 3 multiplies them: its result is
  the reference's fourth dot_general.  The first two layers' outputs are kept for the final maximum.
-/
noncomputable section

namespace Cert.KernelIdeal.Walk

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

open Cert.RowsProduct

/-! ## The three stretches after region 2 (to region 3's entry) -/

/-- The gathered rows scaled by the edge normalisation, summed into their destination rows, plus the bias: the reference's operations on the reference's stages. -/
theorem W11_v88 : W11 m ρ c (Proc.devRef .tc main_v88) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W11, hostOps3]
  after_results_simp
  rw [W10_v70 m ρ c, W10_v3 m ρ c, W10_v6 m ρ c, W10_v27 m ρ c, W10_arg5 m ρ c]
  rfl

/-- The rectifier's stretch: the maximum of the sum with the all-zero array, whatever the contents before it. -/
theorem relu_v89 (W : Valuation τ sig (Elt Ideal)) :
    StableHlo.after (hostOps3_1 (F := Ideal)) W (Proc.devRef .tc main_v89)
      = maximumf (F := Ideal) (s := S100000x64) (φ := .f32) (W (Proc.devRef .tc main_v88))
          (broadcastInDim S100000x64 ![] bcast_S_S100000x64 (constant (F := Ideal) S_ .f32 0x00000000#32)) := by
  dsimp only [hostOps3_1]
  after_results_simp
  rfl

/-- The layer's output: the rectifier of that sum. -/
theorem W12_v89 : W12 m ρ c (Proc.devRef .tc main_v89) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (relu_v89 (W11 m ρ c)).trans (by rw [W11_v88 m ρ c]; rfl)

/-- The weight-slicing stretch does not write the layer's output, whatever the contents before it. -/
theorem slice_keeps_v89 (W : Valuation τ sig (Elt Ideal)) :
    StableHlo.after (hostOps3_2 (F := Ideal)) W (Proc.devRef .tc main_v89) = W (Proc.devRef .tc main_v89) := by
  dsimp only [hostOps3_2]
  after_results_simp

theorem W13_v89 : W13 m ρ c (Proc.devRef .tc main_v89) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (slice_keeps_v89 (W12 m ρ c)).trans (W12_v89 m ρ c)

/-- The next layer's weight matrix: the same slice of the stacked weights, recast. -/
theorem W13_v91 : W13 m ρ c (Proc.devRef .tc main_v91) = val_main_v91 (F := Ideal) (m ((c : Thread nD τ).loc main_arg4)) := by
  dsimp only [W13, W12, W11, hostOps3_2, hostOps3_1, hostOps3]
  after_results_simp
  rw [W10_arg4 m ρ c]
  rfl

theorem W13_v67 : W13 m ρ c (Proc.devRef .tc main_v67) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W13, W12, W11, hostOps3_2, hostOps3_1, hostOps3]
  after_results_simp
  exact W10_v67 m ρ c

theorem W13_v45 : W13 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) := by
  dsimp only [W13, W12, W11, hostOps3_2, hostOps3_1, hostOps3]
  after_results_simp
  exact W10_v45 m ρ c

theorem W13_v3 : W13 m ρ c (Proc.devRef .tc main_v3) = val_main_v3 (F := Ideal) (m ((c : Thread nD τ).loc main_arg1)) := by
  dsimp only [W13, W12, W11, hostOps3_2, hostOps3_1, hostOps3]
  after_results_simp
  exact W10_v3 m ρ c

theorem W13_v6 : W13 m ρ c (Proc.devRef .tc main_v6) = val_main_v6 (F := Ideal) (m ((c : Thread nD τ).loc main_arg1)) := by
  dsimp only [W13, W12, W11, hostOps3_2, hostOps3_1, hostOps3]
  after_results_simp
  exact W10_v6 m ρ c

theorem W13_v27 : W13 m ρ c (Proc.devRef .tc main_v27) = val_main_v27 (F := Ideal) (m ((c : Thread nD τ).loc main_arg1)) := by
  dsimp only [W13, W12, W11, hostOps3_2, hostOps3_1, hostOps3]
  after_results_simp
  exact W10_v27 m ρ c

theorem W13_arg4 : W13 m ρ c (Proc.devRef .tc main_arg4) = m ((c : Thread nD τ).loc main_arg4) := by
  dsimp only [W13, W12, W11, hostOps3_2, hostOps3_1, hostOps3]
  after_results_simp
  exact W10_arg4 m ρ c

theorem W13_arg5 : W13 m ρ c (Proc.devRef .tc main_arg5) = m ((c : Thread nD τ).loc main_arg5) := by
  dsimp only [W13, W12, W11, hostOps3_2, hostOps3_1, hostOps3]
  after_results_simp
  exact W10_arg5 m ρ c

/-! ## After region 3 -/

/-- Region 3's result is the reference's fourth product. -/
theorem W14_v92 : W14 m ρ c (Proc.devRef .tc main_v92) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W14_arr m ρ c 2).trans ((Region3.result (V13 m ρ) c).trans ?_)
  rw [show V13 m ρ c main_v89 = _ from W13_v89 m ρ c, show V13 m ρ c main_v91 = _ from W13_v91 m ρ c]
  exact (hostDot_eq_rowsTimes none _ _).symm

theorem W14_v89 : W14 m ρ c (Proc.devRef .tc main_v89) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W14_arr m ρ c 0).trans (((dat3 (V13 m ρ) c).arrAt_in 0 rfl _).trans (A_eq3 (V13 m ρ) c 0))).trans (W13_v89 m ρ c)

theorem W14_v67 : W14 m ρ c (Proc.devRef .tc main_v67) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W14_of_ne m ρ c main_v67 (by decide)).trans (W13_v67 m ρ c)

theorem W14_v45 : W14 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) :=
  (W14_of_ne m ρ c main_v45 (by decide)).trans (W13_v45 m ρ c)

theorem W14_v3 : W14 m ρ c (Proc.devRef .tc main_v3) = val_main_v3 (F := Ideal) (m ((c : Thread nD τ).loc main_arg1)) :=
  (W14_of_ne m ρ c main_v3 (by decide)).trans (W13_v3 m ρ c)

theorem W14_v6 : W14 m ρ c (Proc.devRef .tc main_v6) = val_main_v6 (F := Ideal) (m ((c : Thread nD τ).loc main_arg1)) :=
  (W14_of_ne m ρ c main_v6 (by decide)).trans (W13_v6 m ρ c)

theorem W14_v27 : W14 m ρ c (Proc.devRef .tc main_v27) = val_main_v27 (F := Ideal) (m ((c : Thread nD τ).loc main_arg1)) :=
  (W14_of_ne m ρ c main_v27 (by decide)).trans (W13_v27 m ρ c)

theorem W14_arg5 : W14 m ρ c (Proc.devRef .tc main_arg5) = m ((c : Thread nD τ).loc main_arg5) :=
  (W14_of_ne m ρ c main_arg5 (by decide)).trans (W13_arg5 m ρ c)

end Cert.KernelIdeal.Walk

end
-- ==== Proof.WalkE.lean ====
import proofs.«111088_j68899865362570_1_alg».proof.Proof.Gen.KernelIdeal.Frame
import proofs.«111088_j68899865362570_1_alg».proof.Proof.Gen.ReferenceIdeal.Read
import proofs.«111088_j68899865362570_1_alg».proof.Proof.Region4
import proofs.«111088_j68899865362570_1_alg».proof.Proof.Region5
import proofs.«111088_j68899865362570_1_alg».proof.Proof.LibRowsProduct
import proofs.«111088_j68899865362570_1_alg».proof.Proof.LibStackMax
import proofs.«111088_j68899865362570_1_alg».proof.Proof.WalkD
import Idealize.ShloMosaic.Lib.StableHlo.Run

set_option maxRecDepth 16384

/-
  From the exit of region 3 to the program's result.

  The fourth layer's output is built as before.  Region 4 takes the entrywise maximum of the four layers' outputs; the
  reference stacks the four, and folds a maximum over the stack from −∞, which is the same array.  Region 5 multiplies
  it by the projection matrix and adds the projection bias to every row; the reference's last dot_general plus its
  spread bias is that array, entry by entry.
-/
noncomputable section

namespace Cert.KernelIdeal.Walk

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

open Cert.RowsProduct Cert.StackMax Idealize.ShloMosaic.ValueIdx

/-! ## After the two stretches (region 4's entry) -/

/-- The gathered rows scaled by the edge normalisation, summed into their destination rows, plus the bias: the reference's operations on the reference's stages. -/
theorem W15_v110 : W15 m ρ c (Proc.devRef .tc main_v110) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W15, hostOps4]
  after_results_simp
  rw [W14_v92 m ρ c, W14_v3 m ρ c, W14_v6 m ρ c, W14_v27 m ρ c, W14_arg5 m ρ c]
  rfl

/-- The rectifier's stretch: the maximum of the sum with the all-zero array, whatever the contents before it. -/
theorem relu_v111 (W : Valuation τ sig (Elt Ideal)) :
    StableHlo.after (hostOps4_1 (F := Ideal)) W (Proc.devRef .tc main_v111)
      = maximumf (F := Ideal) (s := S100000x64) (φ := .f32) (W (Proc.devRef .tc main_v110))
          (broadcastInDim S100000x64 ![] bcast_S_S100000x64 (constant (F := Ideal) S_ .f32 0x00000000#32)) := by
  dsimp only [hostOps4_1]
  after_results_simp
  rfl

/-- The layer's output: the rectifier of that sum. -/
theorem W16_v111 : W16 m ρ c (Proc.devRef .tc main_v111) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (relu_v111 (W15 m ρ c)).trans (by rw [W15_v110 m ρ c]; rfl)

theorem W16_v89 : W16 m ρ c (Proc.devRef .tc main_v89) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W16, W15, hostOps4_1, hostOps4]
  after_results_simp
  exact W14_v89 m ρ c

theorem W16_v67 : W16 m ρ c (Proc.devRef .tc main_v67) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W16, W15, hostOps4_1, hostOps4]
  after_results_simp
  exact W14_v67 m ρ c

theorem W16_v45 : W16 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) := by
  dsimp only [W16, W15, hostOps4_1, hostOps4]
  after_results_simp
  exact W14_v45 m ρ c

/-! ## After region 4 -/

/-- Region 4's result, the entrywise maximum of the four layers' outputs, is the reference's maximum over their stack. -/
theorem W17_v112 : W17 m ρ c (Proc.devRef .tc main_v112) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W17_arr m ρ c 4).trans ((Region4.result (V16 m ρ) c).trans ?_)
  rw [show V16 m ρ c main_v45 = _ from W16_v45 m ρ c, show V16 m ρ c main_v67 = _ from W16_v67 m ρ c,
    show V16 m ρ c main_v89 = _ from W16_v89 m ρ c, show V16 m ρ c main_v111 = _ from W16_v111 m ρ c]
  exact (reduce_stack4 _ (by decide) (by decide) _ _ _ _ _ _ (by decide) _).symm

/-- The projection matrix and bias reach region 5 as launched: region 5 only reads them, and they end as launched. -/
theorem V17_arg6 : V17 m ρ c main_arg6 = m ((c : Thread nD τ).loc main_arg6) :=
  ((W18_arr m ρ c 1).trans (((dat5 (V17 m ρ) c).arrAt_in 1 rfl _).trans (A_eq5 (V17 m ρ) c 1))).symm.trans (W18_main_arg6 m ρ c)

theorem V17_arg7 : V17 m ρ c main_arg7 = m ((c : Thread nD τ).loc main_arg7) :=
  ((W18_arr m ρ c 2).trans (((dat5 (V17 m ρ) c).arrAt_in 2 rfl _).trans (A_eq5 (V17 m ρ) c 2))).symm.trans (W18_main_arg7 m ρ c)

/-! ## After region 5: the result -/

/-- Region 5's result is the reference's result: its last product, with its bias spread over the rows added. -/
theorem W18_v113 : W18 m ρ c (Proc.devRef .tc main_v113) = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W18_arr m ρ c 3).trans ((Region5.result (V17 m ρ) c).trans ?_)
  rw [show V17 m ρ c main_v112 = _ from W17_v112 m ρ c, V17_arg6 m ρ c, V17_arg7 m ρ c]
  refine funext fun i => ?_
  have hi : idx_main_v119 (idx_main_v120 i) = ix1 (i 1) :=
    funext fun a => Fin.ext (by match a with | ⟨0, _⟩ => rfl)
  refine Eq.trans ?_ (val_main_v121_apply (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i).symm
  rw [val_main_v120_apply, val_main_v119_apply, hi]
  exact congrArg (fun z : EReal => z + m ((c : Thread nD τ).loc main_arg7) (ix1 (i 1)))
    (congrFun (hostDot_eq_rowsTimes none (val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) i).symm

end Cert.KernelIdeal.Walk

end
-- ==== Proof.lean ====
/-
  The certificate: a four-layer graph convolution with a jumping-knowledge maximum and a final projection, computed by
  six row-tiled vector-unit regions among host operations, against the same network written with whole-array host
  operations.

  The graph side of every layer — the self-loops, the degrees and the edge normalisation, the gather of the transformed
  rows at the source nodes, their scaling, their sum into the destination rows, the bias and the rectifier — is spelt
  by the same host operations in both programs.  The programs differ only where the kernel uses a region:
    * four products of a 100000-row array with a small matrix, computed 5000 rows at a time; an entry of a product
      depends on one row of the left array only, so the blocks laid end to end are the whole product;
    * the maximum of the four layers' outputs, computed entrywise on blocks, against a maximum folded from −∞ over the
      four arrays stacked; −∞ is the least extended real, so both are the entrywise maximum;
    * the last product with the projection bias added to every row, again block by block.
  A change of float format keeps every value at the exact instance, so the kernel's bf16 feed is immaterial there.  No
  step moves a factor across a sum or cancels, so the finiteness of the inputs is never used.

  The kernel's run leaves every buffer at the contents obtained by following the program — each stretch of host
  operations applied to what came before, each region's arrays at what its write-backs leave; read stage by stage,
  the result buffer holds the reference's last stage of the eight arguments, which is the term the reference's own run
  ends at.
-/
import proofs.«111088_j68899865362570_1_alg».proof.Defs
import proofs.«111088_j68899865362570_1_alg».proof.Proof.Gen.Kernel
import proofs.«111088_j68899865362570_1_alg».proof.Proof.Gen.Kernel.Skeleton
import proofs.«111088_j68899865362570_1_alg».proof.Proof.Gen.Kernel.Launch
import proofs.«111088_j68899865362570_1_alg».proof.Proof.Gen.Kernel.Points
import proofs.«111088_j68899865362570_1_alg».proof.Proof.Gen.Kernel.Frame
import proofs.«111088_j68899865362570_1_alg».proof.Proof.Gen.KernelIdeal
import proofs.«111088_j68899865362570_1_alg».proof.Proof.Gen.KernelIdeal.Skeleton
import proofs.«111088_j68899865362570_1_alg».proof.Proof.Gen.KernelIdeal.Launch
import proofs.«111088_j68899865362570_1_alg».proof.Proof.Gen.KernelIdeal.Points
import proofs.«111088_j68899865362570_1_alg».proof.Proof.Gen.KernelIdeal.Frame
import proofs.«111088_j68899865362570_1_alg».proof.Proof.Gen.ReferenceIdeal
import proofs.«111088_j68899865362570_1_alg».proof.Proof.Gen.Pre_finite_inputs
import proofs.«111088_j68899865362570_1_alg».proof.Proof.Gen.ReferenceIdeal.Run
import proofs.«111088_j68899865362570_1_alg».proof.Proof.Gen.ReferenceIdeal.Read
import proofs.«111088_j68899865362570_1_alg».proof.Proof.KernelRun
import proofs.«111088_j68899865362570_1_alg».proof.Proof.WalkE
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the reference's last stage of the
    kernel's arguments in their result buffers. -/
theorem algebraic : Cert.algebraic_KernelIdeal_ReferenceIdeal := by
  intro m ρ m' ρ' _ hagree
  refine ⟨fun c => Cert.ReferenceIdeal.Read.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Walk.W18_v113 m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v121_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
